-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x16 : Shape := ⟨2, ![2097152, 16]⟩
abbrev S16x524288x2 : Shape := ⟨3, ![16, 524288, 2]⟩
abbrev S32x64 : Shape := ⟨2, ![32, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S_ : Shape := ⟨0, ![]⟩

class Facts : Prop where
  bcast_S_S16x524288x2 : S_.BroadcastsInDim S16x524288x2 (![] : Fin 0 → Fin S16x524288x2.rank)
  reducesTo_S16x524288x2_S_d0_1_2 : S16x524288x2.ReducesTo [0, 1, 2] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg8 : FVec F S64x3 .f32) (main_arg9 : FVec F S3 .f32) (main_v33 : IVec S_ 1) : IVec S_ 1 :=
  let main_v34 : FVec F S64x3 .f32 := Host.absf main_arg8
  let main_cst_12 : FVec F S_ .f32 := constant S_ .f32 0x7F800000#32
  let main_v35 : FVec F S64x3 .f32 := broadcastInDim S64x3 ![] bcast_S_S64x3 main_cst_12
  let main_v36 : IVec S64x3 1 := cmpf .olt main_v34 main_v35
  let main_c_13 : IVec S_ 1 := constantI S_ 1 1#1
  let main_v37 : IVec S_ 1 := (fun x v => Host.reduce IntOp.andi x v reducesTo_S64x3_S_d0_1 h_S_) main_v36 main_c_13
  let main_v38 : IVec S_ 1 := andi main_v33 main_v37
  let main_v39 : FVec F S3 .f32 := Host.absf main_arg9
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  main_v43

def fn_part1 {F : FTy → Type} [FloatOps F] (main_arg5 : FVec F S64 .f32) (main_arg6 : FVec F S64x64 .f32) (main_arg7 : FVec F S64 .f32) (main_arg8 : FVec F S64x3 .f32) (main_arg9 : FVec F S3 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : IVec S2097152x16 32) (main_arg1 : FVec F S16x524288x2 .f32) (main_arg2 : FVec F S32x64 .f32) (main_arg3 : FVec F S64 .f32) (main_arg4 : FVec F S64x64 .f32) (main_arg5 : FVec F S64 .f32) (main_arg6 : FVec F S64x64 .f32) (main_arg7 : FVec F S64 .f32) (main_arg8 : FVec F S64x3 .f32) (main_arg9 : FVec F S3 .f32) : IVec S_ 1 :=
  let main_v0 : FVec F S16x524288x2 .f32 := Host.absf main_arg1
  let main_cst : FVec F S_ .f32 := constant S_ .f32 0x7F800000#32
  let main_v1 : FVec F S16x524288x2 .f32 := broadcastInDim S16x524288x2 ![] bcast_S_S16x524288x2 main_cst
  let main_v2 : IVec S16x524288x2 1 := cmpf .olt main_v0 main_v1
  let main_c : IVec S_ 1 := constantI S_ 1 1#1
  let main_v3 : IVec S_ 1 := (fun x v => Host.reduce IntOp.andi x v reducesTo_S16x524288x2_S_d0_1_2 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S2097152x16 : Shape := ⟨2, ![2097152, 16]⟩
abbrev S16x524288x2 : Shape := ⟨3, ![16, 524288, 2]⟩
abbrev S32x64 : Shape := ⟨2, ![32, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S_ : Shape := ⟨0, ![]⟩
abbrev S16x2097152 : Shape := ⟨2, ![16, 2097152]⟩
abbrev S16x2097152x1 : Shape := ⟨3, ![16, 2097152, 1]⟩
abbrev S16x2097152x2 : Shape := ⟨3, ![16, 2097152, 2]⟩
abbrev S2097152x16x2 : Shape := ⟨3, ![2097152, 16, 2]⟩
abbrev S2097152x32 : Shape := ⟨2, ![2097152, 32]⟩
abbrev S2097152x3 : Shape := ⟨2, ![2097152, 3]⟩
abbrev S8192x32 : Shape := ⟨2, ![8192, 32]⟩
abbrev S8192x3 : Shape := ⟨2, ![8192, 3]⟩
abbrev S8192x64 : Shape := ⟨2, ![8192, 64]⟩
abbrev S1x64 : Shape := ⟨2, ![1, 64]⟩
abbrev S1x3 : Shape := ⟨2, ![1, 3]⟩

abbrev nBuf : Space → Nat
  | .hbm => 24
  | .vmem => 12
  | .smem => 0
  | _ => 0

abbrev bufTy : (tb : Table) → Fin (tcTables nBuf tb) → BufTy
  | .hbm, ⟨0, _⟩ => ⟨S2097152x16, .i32⟩
  | .hbm, ⟨1, _⟩ => ⟨S16x524288x2, .f32⟩
  | .hbm, ⟨2, _⟩ => ⟨S32x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x3, .f32⟩
  | .hbm, ⟨9, _⟩ => ⟨S3, .f32⟩
  | .hbm, ⟨10, _⟩ => ⟨S16x524288x2, .bf16⟩
  | .hbm, ⟨11, _⟩ => ⟨S_, .i32⟩
  | .hbm, ⟨12, _⟩ => ⟨S2097152x16, .i32⟩
  | .hbm, ⟨13, _⟩ => ⟨S2097152x16, .i1⟩
  | .hbm, ⟨14, _⟩ => ⟨S_, .i32⟩
  | .hbm, ⟨15, _⟩ => ⟨S2097152x16, .i32⟩
  | .hbm, ⟨16, _⟩ => ⟨S2097152x16, .i32⟩
  | .hbm, ⟨17, _⟩ => ⟨S2097152x16, .i32⟩
  | .hbm, ⟨18, _⟩ => ⟨S16x2097152, .i32⟩
  | .hbm, ⟨19, _⟩ => ⟨S16x2097152x1, .i32⟩
  | .hbm, ⟨20, _⟩ => ⟨S16x2097152x2, .bf16⟩
  | .hbm, ⟨21, _⟩ => ⟨S2097152x16x2, .bf16⟩
  | .hbm, ⟨22, _⟩ => ⟨S2097152x32, .bf16⟩
  | .hbm, ⟨23, _⟩ => ⟨S2097152x3, .f32⟩
  | .local _ .vmem, ⟨0, _⟩ => ⟨S8192x32, .bf16⟩
  | .local _ .vmem, ⟨1, _⟩ => ⟨S8192x32, .bf16⟩
  | .local _ .vmem, ⟨2, _⟩ => ⟨S32x64, .f32⟩
  | .local _ .vmem, ⟨3, _⟩ => ⟨S64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S64x3, .f32⟩
  | .local _ .vmem, ⟨9, _⟩ => ⟨S3, .f32⟩
  | .local _ .vmem, ⟨10, _⟩ => ⟨S8192x3, .f32⟩
  | .local _ .vmem, ⟨11, _⟩ => ⟨S8192x3, .f32⟩
  | _, _ => ⟨S2097152x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8192x3 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  bcast_S_S2097152x16 : S_.BroadcastsInDim S2097152x16 (![] : Fin 0 → Fin S2097152x16.rank)
  transposes_S2097152x16_S16x2097152_1_0 : S2097152x16.Transposes [1, 0] S16x2097152
  bcast_S16x2097152_S16x2097152x1_0_1 : S16x2097152.BroadcastsInDim S16x2097152x1 (![0, 1] : Fin 2 → Fin S16x2097152x1.rank)
  transposes_S16x2097152x2_S2097152x16x2_1_0_2 : S16x2097152x2.Transposes [1, 0, 2] S2097152x16x2
  shapeCasts_S2097152x16x2_S2097152x32 : S2097152x16x2.ShapeCasts S2097152x32
  inb_S8192x32_S8192x32_0_0 : ∀ a, (![0, 0] : Fin 2 → Nat) a + S8192x32.size a ≤ S8192x32.size a
  h_S8192x32 : 0 < S8192x32.numel
  shapeCasts_S8192x32_S8192x32 : S8192x32.ShapeCasts S8192x32
  inb_S32x64_S32x64_0_0 : ∀ a, (![0, 0] : Fin 2 → Nat) a + S32x64.size a ≤ S32x64.size a
  h_S32x64 : 0 < S32x64.numel
  inb_S64_S64_0 : ∀ a, (![0] : Fin 1 → Nat) a + S64.size a ≤ S64.size a
  h_S64 : 0 < S64.numel
  shapeCasts_S64_S1x64 : S64.ShapeCasts S1x64
  broadcasts_S1x64_S8192x64 : S1x64.Broadcasts S8192x64
  inb_S64x64_S64x64_0_0 : ∀ a, (![0, 0] : Fin 2 → Nat) a + S64x64.size a ≤ S64x64.size a
  h_S64x64 : 0 < S64x64.numel
  inb_S64x3_S64x3_0_0 : ∀ a, (![0, 0] : Fin 2 → Nat) a + S64x3.size a ≤ S64x3.size a
  h_S64x3 : 0 < S64x3.numel
  inb_S3_S3_0 : ∀ a, (![0] : Fin 1 → Nat) a + S3.size a ≤ S3.size a
  h_S3 : 0 < S3.numel
  shapeCasts_S3_S1x3 : S3.ShapeCasts S1x3
  broadcasts_S1x3_S8192x3 : S1x3.Broadcasts S8192x3
  inb_S8192x3_S8192x3_0_0 : ∀ a, (![0, 0] : Fin 2 → Nat) a + S8192x3.size a ≤ S8192x3.size a
  h_S8192x3 : 0 < S8192x3.numel
  gather_S16x524288x2_S16x2097152x1_S16x2097152x2_2_1_0_0_1_2_112_wf : GatherDims.WF S16x524288x2 S16x2097152x1 S16x2097152x2 [2] [1] [0] [1] [0] 2 ![1, 1, 2]
  dot_S8192x32_S32x64_S8192x64_1_0_0_1_n_n_wf : DotDims.WF S8192x32 S32x64 S8192x64 [1] [0] [0] [1] [] []
  dot_S8192x64_S64x64_S8192x64_1_0_0_1_n_n_wf : DotDims.WF S8192x64 S64x64 S8192x64 [1] [0] [0] [1] [] []
  dot_S8192x64_S64x3_S8192x3_1_0_0_1_n_n_wf : DotDims.WF S8192x64 S64x3 S8192x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x32.size a ≤ S2097152x32.size a
  hwx0_0 : ∀ i : grid0.Coords, EltTy.bits .bf16 = 32 ∨ (Rect.block (s := S2097152x32) S8192x32.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x3.size a ≤ S64x3.size a
  hwx0_7 : ∀ i : grid0.Coords, EltTy.bits .f32 = 32 ∨ (Rect.block (s := S64x3) S64x3.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3.size a ≤ S3.size a
  hwx0_8 : ∀ i : grid0.Coords, EltTy.bits .f32 = 32 ∨ (Rect.block (s := S3) S3.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8192x3.size a ≤ S2097152x3.size a
  hwx0_9 : ∀ i : grid0.Coords, EltTy.bits .f32 = 32 ∨ (Rect.block (s := S2097152x3) S8192x3.size (cc0_transform_9 i) (hinb0_9 i)).WholeWords (EltTy.packing .f32)

variable [Facts₀]

def gather_S16x524288x2_S16x2097152x1_S16x2097152x2_2_1_0_0_1_2_112 : GatherDims S16x524288x2 S16x2097152x1 S16x2097152x2 where
  offsetDims := [2]
  collapsedSliceDims := [1]
  operandBatchingDims := [0]
  startIndicesBatchingDims := [0]
  startIndexMap := [1]
  indexVectorDim := 2
  sliceSizes := ![1, 1, 2]
  wf := gather_S16x524288x2_S16x2097152x1_S16x2097152x2_2_1_0_0_1_2_112_wf
def dot_S8192x32_S32x64_S8192x64_1_0_0_1_n_n : DotDims S8192x32 S32x64 S8192x64 where
  lhsContracting := [1]
  rhsContracting := [0]
  lhsNonContracting := [0]
  rhsNonContracting := [1]
  lhsBatch := []
  rhsBatch := []
  wf := dot_S8192x32_S32x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x3_S8192x3_1_0_0_1_n_n : DotDims S8192x64 S64x3 S8192x3 where
  lhsContracting := [1]
  rhsContracting := [0]
  lhsNonContracting := [0]
  rhsNonContracting := [1]
  lhsBatch := []
  rhsBatch := []
  wf := dot_S8192x64_S64x3_S8192x3_1_0_0_1_n_n_wf

abbrev win0_0 : Pipeline.Window sig grid0 :=
  Pipeline.Window.ofSpec (Memref.whole main_v10) S8192x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S64x3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S3.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S8192x3.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S2097152x16 : Shape := ⟨2, ![2097152, 16]⟩
abbrev S16x524288x2 : Shape := ⟨3, ![16, 524288, 2]⟩
abbrev S32x64 : Shape := ⟨2, ![32, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S_ : Shape := ⟨0, ![]⟩
abbrev S16x2097152 : Shape := ⟨2, ![16, 2097152]⟩
abbrev S16x2097152x1 : Shape := ⟨3, ![16, 2097152, 1]⟩
abbrev S16x2097152x2 : Shape := ⟨3, ![16, 2097152, 2]⟩
abbrev S2097152x16x2 : Shape := ⟨3, ![2097152, 16, 2]⟩
abbrev S2097152x32 : Shape := ⟨2, ![2097152, 32]⟩
abbrev S2097152x64 : Shape := ⟨2, ![2097152, 64]⟩
abbrev S1x64 : Shape := ⟨2, ![1, 64]⟩
abbrev S2097152x3 : Shape := ⟨2, ![2097152, 3]⟩
abbrev S1x3 : Shape := ⟨2, ![1, 3]⟩

abbrev nBuf : Space → Nat
  | .hbm => 47
  | .vmem => 0
  | .smem => 0
  | _ => 0

abbrev bufTy : (tb : Table) → Fin (tcTables nBuf tb) → BufTy
  | .hbm, ⟨0, _⟩ => ⟨S2097152x16, .i32⟩
  | .hbm, ⟨1, _⟩ => ⟨S16x524288x2, .f32⟩
  | .hbm, ⟨2, _⟩ => ⟨S32x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x3, .f32⟩
  | .hbm, ⟨9, _⟩ => ⟨S3, .f32⟩
  | .hbm, ⟨10, _⟩ => ⟨S_, .i32⟩
  | .hbm, ⟨11, _⟩ => ⟨S2097152x16, .i32⟩
  | .hbm, ⟨12, _⟩ => ⟨S2097152x16, .i1⟩
  | .hbm, ⟨13, _⟩ => ⟨S_, .i32⟩
  | .hbm, ⟨14, _⟩ => ⟨S2097152x16, .i32⟩
  | .hbm, ⟨15, _⟩ => ⟨S2097152x16, .i32⟩
  | .hbm, ⟨16, _⟩ => ⟨S2097152x16, .i32⟩
  | .hbm, ⟨17, _⟩ => ⟨S16x2097152, .i32⟩
  | .hbm, ⟨18, _⟩ => ⟨S16x2097152x1, .i32⟩
  | .hbm, ⟨19, _⟩ => ⟨S16x2097152x2, .f32⟩
  | .hbm, ⟨20, _⟩ => ⟨S2097152x16x2, .f32⟩
  | .hbm, ⟨21, _⟩ => ⟨S2097152x32, .f32⟩
  | .hbm, ⟨22, _⟩ => ⟨S2097152x64, .f32⟩
  | .hbm, ⟨23, _⟩ => ⟨S1x64, .f32⟩
  | .hbm, ⟨24, _⟩ => ⟨S2097152x64, .f32⟩
  | .hbm, ⟨25, _⟩ => ⟨S2097152x64, .f32⟩
  | .hbm, ⟨26, _⟩ => ⟨S_, .f32⟩
  | .hbm, ⟨27, _⟩ => ⟨S2097152x64, .f32⟩
  | .hbm, ⟨28, _⟩ => ⟨S2097152x64, .f32⟩
  | .hbm, ⟨29, _⟩ => ⟨S2097152x64, .f32⟩
  | .hbm, ⟨30, _⟩ => ⟨S1x64, .f32⟩
  | .hbm, ⟨31, _⟩ => ⟨S2097152x64, .f32⟩
  | .hbm, ⟨32, _⟩ => ⟨S2097152x64, .f32⟩
  | .hbm, ⟨33, _⟩ => ⟨S_, .f32⟩
  | .hbm, ⟨34, _⟩ => ⟨S2097152x64, .f32⟩
  | .hbm, ⟨35, _⟩ => ⟨S2097152x64, .f32⟩
  | .hbm, ⟨36, _⟩ => ⟨S2097152x64, .f32⟩
  | .hbm, ⟨37, _⟩ => ⟨S1x64, .f32⟩
  | .hbm, ⟨38, _⟩ => ⟨S2097152x64, .f32⟩
  | .hbm, ⟨39, _⟩ => ⟨S2097152x64, .f32⟩
  | .hbm, ⟨40, _⟩ => ⟨S_, .f32⟩
  | .hbm, ⟨41, _⟩ => ⟨S2097152x64, .f32⟩
  | .hbm, ⟨42, _⟩ => ⟨S2097152x64, .f32⟩
  | .hbm, ⟨43, _⟩ => ⟨S2097152x3, .f32⟩
  | .hbm, ⟨44, _⟩ => ⟨S1x3, .f32⟩
  | .hbm, ⟨45, _⟩ => ⟨S2097152x3, .f32⟩
  | .hbm, ⟨46, _⟩ => ⟨S2097152x3, .f32⟩
  | _, _ => ⟨S2097152x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call0_cst : Ref sig .tc := ⟨.hbm, 26, rfl⟩
abbrev main_call0_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call1_cst : Ref sig .tc := ⟨.hbm, 33, rfl⟩
abbrev main_call1_v0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call2_cst : Ref sig .tc := ⟨.hbm, 40, rfl⟩
abbrev main_call2_v0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]

class Facts₀ : Prop where
  bcast_S_S2097152x16 : S_.BroadcastsInDim S2097152x16 (![] : Fin 0 → Fin S2097152x16.rank)
  transposes_S2097152x16_S16x2097152_1_0 : S2097152x16.Transposes [1, 0] S16x2097152
  bcast_S16x2097152_S16x2097152x1_0_1 : S16x2097152.BroadcastsInDim S16x2097152x1 (![0, 1] : Fin 2 → Fin S16x2097152x1.rank)
  transposes_S16x2097152x2_S2097152x16x2_1_0_2 : S16x2097152x2.Transposes [1, 0, 2] S2097152x16x2
  shapeCasts_S2097152x16x2_S2097152x32 : S2097152x16x2.ShapeCasts S2097152x32
  bcast_S64_S1x64_1 : S64.BroadcastsInDim S1x64 (![1] : Fin 1 → Fin S1x64.rank)
  bcast_S1x64_S2097152x64_0_1 : S1x64.BroadcastsInDim S2097152x64 (![0, 1] : Fin 2 → Fin S2097152x64.rank)
  bcast_S_S2097152x64 : S_.BroadcastsInDim S2097152x64 (![] : Fin 0 → Fin S2097152x64.rank)
  bcast_S3_S1x3_1 : S3.BroadcastsInDim S1x3 (![1] : Fin 1 → Fin S1x3.rank)
  bcast_S1x3_S2097152x3_0_1 : S1x3.BroadcastsInDim S2097152x3 (![0, 1] : Fin 2 → Fin S2097152x3.rank)
  gather_S16x524288x2_S16x2097152x1_S16x2097152x2_2_1_0_0_1_2_112_wf : GatherDims.WF S16x524288x2 S16x2097152x1 S16x2097152x2 [2] [1] [0] [1] [0] 2 ![1, 1, 2]
  dot_S2097152x32_S32x64_S2097152x64_1_0_0_1_n_n_wf : DotDims.WF S2097152x32 S32x64 S2097152x64 [1] [0] [0] [1] [] []
  dot_S2097152x64_S64x64_S2097152x64_1_0_0_1_n_n_wf : DotDims.WF S2097152x64 S64x64 S2097152x64 [1] [0] [0] [1] [] []
  dot_S2097152x64_S64x3_S2097152x3_1_0_0_1_n_n_wf : DotDims.WF S2097152x64 S64x3 S2097152x3 [1] [0] [0] [1] [] []

variable [Facts₀]

def gather_S16x524288x2_S16x2097152x1_S16x2097152x2_2_1_0_0_1_2_112 : GatherDims S16x524288x2 S16x2097152x1 S16x2097152x2 where
  offsetDims := [2]
  collapsedSliceDims := [1]
  operandBatchingDims := [0]
  startIndicesBatchingDims := [0]
  startIndexMap := [1]
  indexVectorDim := 2
  sliceSizes := ![1, 1, 2]
  wf := gather_S16x524288x2_S16x2097152x1_S16x2097152x2_2_1_0_0_1_2_112_wf
def dot_S2097152x32_S32x64_S2097152x64_1_0_0_1_n_n : DotDims S2097152x32 S32x64 S2097152x64 where
  lhsContracting := [1]
  rhsContracting := [0]
  lhsNonContracting := [0]
  rhsNonContracting := [1]
  lhsBatch := []
  rhsBatch := []
  wf := dot_S2097152x32_S32x64_S2097152x64_1_0_0_1_n_n_wf
def dot_S2097152x64_S64x64_S2097152x64_1_0_0_1_n_n : DotDims S2097152x64 S64x64 S2097152x64 where
  lhsContracting := [1]
  rhsContracting := [0]
  lhsNonContracting := [0]
  rhsNonContracting := [1]
  lhsBatch := []
  rhsBatch := []
  wf := dot_S2097152x64_S64x64_S2097152x64_1_0_0_1_n_n_wf
def dot_S2097152x64_S64x3_S2097152x3_1_0_0_1_n_n : DotDims S2097152x64 S64x3 S2097152x3 where
  lhsContracting := [1]
  rhsContracting := [0]
  lhsNonContracting := [0]
  rhsNonContracting := [1]
  lhsBatch := []
  rhsBatch := []
  wf := dot_S2097152x64_S64x3_S2097152x3_1_0_0_1_n_n_wf

class Facts : Prop extends Facts₀ where

variable [Facts]
-- ==== Proof.MlpSpec.lean ====
/-
  The function both programs compute, stated once over the extended reals and over no program: a
  four-layer perceptron applied row by row. A row `x` of 32 features goes through three dense layers
  of width 64, each followed by a clamp at zero, and a last dense layer of width 3:
      out = W4ᵀ · relu (W3ᵀ · relu (W2ᵀ · relu (W1ᵀ · x + b1) + b2) + b3) + b4.
  A dense layer is `(∑ k, h k · W[k, j]) + b[j]`; the sum is a finite sum in the extended reals,
  whose addition and multiplication are commutative and associative, so no order of summation and
  no tiling of the rows is visible in it. The zero the clamps compare against is kept as the bit
  pattern both programs write (`0x00000000`), never evaluated.
-/
import Idealize.ShloMosaic.PureOps.Ideal
import Idealize.ShloMosaic.Lib.ValueIdx

noncomputable section

namespace Cert.Mlp

open Idealize.ShloMosaic Idealize.ShloMosaic.ValueIdx
open scoped BigOperators

/-- The value the activations are clamped at: the extended real the all-zero f32 pattern denotes. -/
abbrev zero : EReal := Ideal.ofBits .f32 0x00000000#32

/-- One dense layer at one row: `h ↦ (∑ k, h k · W[k, j]) + b[j]`. -/
def dense {K J : Nat} (W : (⟨2, ![K, J]⟩ : Shape).Idx → EReal) (b : (⟨1, ![J]⟩ : Shape).Idx → EReal)
    (h : Fin K → EReal) : Fin J → EReal :=
  fun j => (∑ k : Fin K, h k * W (ix2 k j)) + b (ix1 j)

/-- The clamp at zero, entry by entry. -/
def clamp {J : Nat} (h : Fin J → EReal) : Fin J → EReal := fun j => max (h j) zero

/-- The three hidden layers of a row. -/
def hidden (W1 : (⟨2, ![32, 64]⟩ : Shape).Idx → EReal) (b1 : (⟨1, ![64]⟩ : Shape).Idx → EReal)
    (W2 : (⟨2, ![64, 64]⟩ : Shape).Idx → EReal) (b2 : (⟨1, ![64]⟩ : Shape).Idx → EReal)
    (W3 : (⟨2, ![64, 64]⟩ : Shape).Idx → EReal) (b3 : (⟨1, ![64]⟩ : Shape).Idx → EReal)
    (x : Fin 32 → EReal) : Fin 64 → EReal :=
  clamp (dense W3 b3 (clamp (dense W2 b2 (clamp (dense W1 b1 x)))))

/-- The whole perceptron on the array of rows `X`: entry `(n, o)` is output `o` of row `n`. -/
def G (X : (⟨2, ![2097152, 32]⟩ : Shape).Idx → EReal)
    (W1 : (⟨2, ![32, 64]⟩ : Shape).Idx → EReal) (b1 : (⟨1, ![64]⟩ : Shape).Idx → EReal)
    (W2 : (⟨2, ![64, 64]⟩ : Shape).Idx → EReal) (b2 : (⟨1, ![64]⟩ : Shape).Idx → EReal)
    (W3 : (⟨2, ![64, 64]⟩ : Shape).Idx → EReal) (b3 : (⟨1, ![64]⟩ : Shape).Idx → EReal)
    (W4 : (⟨2, ![64, 3]⟩ : Shape).Idx → EReal) (b4 : (⟨1, ![3]⟩ : Shape).Idx → EReal) :
    (⟨2, ![2097152, 3]⟩ : Shape).Idx → EReal :=
  fun i => dense W4 b4 (hidden W1 b1 W2 b2 W3 b3 (fun k => X (ix2 (i 0) k))) (i 1)

end Cert.Mlp

end
-- ==== Proof.KernelRow.lean ====
/-
  The kernel's arithmetic at one entry of a block. The body's payload is a chain of three stages
  (a matmul into a zero accumulator, a bias row added down the block, a clamp at zero) and a last
  matmul. Read at the extended reals, at row `p` of the block and column `o`, the chain is the last
  layer's sum over the hidden activations of row `p` alone: entry `(p, j)` of a matmul is
  `∑ k, l[p, k] · r[k, j]`, a bias row broadcast down the block reads `b[j]` at every row, and the
  clamp and the changes of float format act entry by entry (the latter as the identity).
-/
import proofs.«127308_j43619687858999_2_alg».proof.Proof.Gen.KernelIdeal.Skeleton
import proofs.«127308_j43619687858999_2_alg».proof.Proof.MlpSpec
import Idealize.ShloMosaic.PureOps.Ideal.Laws
import Idealize.ShloMosaic.Lib.Pipeline.Value
import Idealize.ShloMosaic.Lib.ValueIdx

noncomputable section

namespace Cert.KernelIdeal.Row

open Cert.KernelIdeal Cert.KernelIdeal.Gen Idealize.ShloMosaic Idealize.ShloMosaic.ValueIdx Cert.Mlp
open scoped BigOperators

theorem mm1_l0 (i : S8192x64.Idx) (q : dot_S8192x32_S32x64_S8192x64_1_0_0_1_n_n.contr.Idx) : (dot_S8192x32_S32x64_S8192x64_1_0_0_1_n_n.lhsIdx i q 0).val = (i 0).val := by
  unfold DotDims.lhsIdx
  rw [dif_neg (show ¬(0 : Fin S8192x32.rank) ∈ dot_S8192x32_S32x64_S8192x64_1_0_0_1_n_n.lhsBatch by decide), dif_pos (show (0 : Fin S8192x32.rank) ∈ dot_S8192x32_S32x64_S8192x64_1_0_0_1_n_n.lhsNonContracting by decide)]
  rfl
theorem mm1_l1 (i : S8192x64.Idx) (q : dot_S8192x32_S32x64_S8192x64_1_0_0_1_n_n.contr.Idx) : (dot_S8192x32_S32x64_S8192x64_1_0_0_1_n_n.lhsIdx i q 1).val = (q ⟨0, by decide⟩).val :=
  dot_S8192x32_S32x64_S8192x64_1_0_0_1_n_n.lhsIdx_val_of_single rfl i q
theorem mm1_r0 (i : S8192x64.Idx) (q : dot_S8192x32_S32x64_S8192x64_1_0_0_1_n_n.contr.Idx) : (dot_S8192x32_S32x64_S8192x64_1_0_0_1_n_n.rhsIdx i q 0).val = (q ⟨0, by decide⟩).val :=
  dot_S8192x32_S32x64_S8192x64_1_0_0_1_n_n.rhsIdx_val_of_single rfl i q
theorem mm1_r1 (i : S8192x64.Idx) (q : dot_S8192x32_S32x64_S8192x64_1_0_0_1_n_n.contr.Idx) : (dot_S8192x32_S32x64_S8192x64_1_0_0_1_n_n.rhsIdx i q 1).val = (i 1).val := by
  unfold DotDims.rhsIdx
  rw [dif_neg (show ¬(1 : Fin S32x64.rank) ∈ dot_S8192x32_S32x64_S8192x64_1_0_0_1_n_n.rhsBatch by decide), dif_pos (show (1 : Fin S32x64.rank) ∈ dot_S8192x32_S32x64_S8192x64_1_0_0_1_n_n.rhsNonContracting by decide)]
  rfl

/-- The matmul of a [8192, 32] block with [32, 64] weights into zeros, at entry `(p, j)`: the sum over the
    contracted coordinate of the products. -/
theorem mm1_apply (l : FVec Ideal S8192x32 .bf16) (r : FVec Ideal S32x64 .bf16) (p : Fin 8192) (j : Fin 64) :
    matmul dot_S8192x32_S32x64_S8192x64_1_0_0_1_n_n none l r (constant S8192x64 .f32 0x00000000#32) (ix2 p j)
      = ∑ k : Fin 32, l (ix2 p k) * r (ix2 k j) := by
  simp only [matmul]
  rw [Ideal.matmul_constant_zero_apply, ← Equiv.sum_comp (contrEquiv1 dot_S8192x32_S32x64_S8192x64_1_0_0_1_n_n 32 rfl rfl).symm]
  refine Finset.sum_congr rfl fun k _ => ?_
  have hk := contrEquiv1_symm_val dot_S8192x32_S32x64_S8192x64_1_0_0_1_n_n 32 rfl rfl k
  have el : dot_S8192x32_S32x64_S8192x64_1_0_0_1_n_n.lhsIdx (ix2 p j) ((contrEquiv1 dot_S8192x32_S32x64_S8192x64_1_0_0_1_n_n 32 rfl rfl).symm k) = ix2 p k := funext fun a => Fin.ext (by
    match a with
    | ⟨0, _⟩ => exact mm1_l0 _ _
    | ⟨1, _⟩ => exact (mm1_l1 _ _).trans hk)
  have er : dot_S8192x32_S32x64_S8192x64_1_0_0_1_n_n.rhsIdx (ix2 p j) ((contrEquiv1 dot_S8192x32_S32x64_S8192x64_1_0_0_1_n_n 32 rfl rfl).symm k) = ix2 k j := funext fun a => Fin.ext (by
    match a with
    | ⟨0, _⟩ => exact (mm1_r0 _ _).trans hk
    | ⟨1, _⟩ => exact mm1_r1 _ _)
  rw [el, er]

theorem mm2_l0 (i : S8192x64.Idx) (q : dot_S8192x64_S64x64_S8192x64_1_0_0_1_n_n.contr.Idx) : (dot_S8192x64_S64x64_S8192x64_1_0_0_1_n_n.lhsIdx i q 0).val = (i 0).val := by
  unfold DotDims.lhsIdx
  rw [dif_neg (show ¬(0 : Fin S8192x64.rank) ∈ dot_S8192x64_S64x64_S8192x64_1_0_0_1_n_n.lhsBatch by decide), dif_pos (show (0 : Fin S8192x64.rank) ∈ dot_S8192x64_S64x64_S8192x64_1_0_0_1_n_n.lhsNonContracting by decide)]
  rfl
theorem mm2_l1 (i : S8192x64.Idx) (q : dot_S8192x64_S64x64_S8192x64_1_0_0_1_n_n.contr.Idx) : (dot_S8192x64_S64x64_S8192x64_1_0_0_1_n_n.lhsIdx i q 1).val = (q ⟨0, by decide⟩).val :=
  dot_S8192x64_S64x64_S8192x64_1_0_0_1_n_n.lhsIdx_val_of_single rfl i q
theorem mm2_r0 (i : S8192x64.Idx) (q : dot_S8192x64_S64x64_S8192x64_1_0_0_1_n_n.contr.Idx) : (dot_S8192x64_S64x64_S8192x64_1_0_0_1_n_n.rhsIdx i q 0).val = (q ⟨0, by decide⟩).val :=
  dot_S8192x64_S64x64_S8192x64_1_0_0_1_n_n.rhsIdx_val_of_single rfl i q
theorem mm2_r1 (i : S8192x64.Idx) (q : dot_S8192x64_S64x64_S8192x64_1_0_0_1_n_n.contr.Idx) : (dot_S8192x64_S64x64_S8192x64_1_0_0_1_n_n.rhsIdx i q 1).val = (i 1).val := by
  unfold DotDims.rhsIdx
  rw [dif_neg (show ¬(1 : Fin S64x64.rank) ∈ dot_S8192x64_S64x64_S8192x64_1_0_0_1_n_n.rhsBatch by decide), dif_pos (show (1 : Fin S64x64.rank) ∈ dot_S8192x64_S64x64_S8192x64_1_0_0_1_n_n.rhsNonContracting by decide)]
  rfl

/-- The matmul of a [8192, 64] block with [64, 64] weights into zeros, at entry `(p, j)`: the sum over the
    contracted coordinate of the products. -/
theorem mm2_apply (l : FVec Ideal S8192x64 .bf16) (r : FVec Ideal S64x64 .bf16) (p : Fin 8192) (j : Fin 64) :
    matmul dot_S8192x64_S64x64_S8192x64_1_0_0_1_n_n none l r (constant S8192x64 .f32 0x00000000#32) (ix2 p j)
      = ∑ k : Fin 64, l (ix2 p k) * r (ix2 k j) := by
  simp only [matmul]
  rw [Ideal.matmul_constant_zero_apply, ← Equiv.sum_comp (contrEquiv1 dot_S8192x64_S64x64_S8192x64_1_0_0_1_n_n 64 rfl rfl).symm]
  refine Finset.sum_congr rfl fun k _ => ?_
  have hk := contrEquiv1_symm_val dot_S8192x64_S64x64_S8192x64_1_0_0_1_n_n 64 rfl rfl k
  have el : dot_S8192x64_S64x64_S8192x64_1_0_0_1_n_n.lhsIdx (ix2 p j) ((contrEquiv1 dot_S8192x64_S64x64_S8192x64_1_0_0_1_n_n 64 rfl rfl).symm k) = ix2 p k := funext fun a => Fin.ext (by
    match a with
    | ⟨0, _⟩ => exact mm2_l0 _ _
    | ⟨1, _⟩ => exact (mm2_l1 _ _).trans hk)
  have er : dot_S8192x64_S64x64_S8192x64_1_0_0_1_n_n.rhsIdx (ix2 p j) ((contrEquiv1 dot_S8192x64_S64x64_S8192x64_1_0_0_1_n_n 64 rfl rfl).symm k) = ix2 k j := funext fun a => Fin.ext (by
    match a with
    | ⟨0, _⟩ => exact (mm2_r0 _ _).trans hk
    | ⟨1, _⟩ => exact mm2_r1 _ _)
  rw [el, er]

theorem mm3_l0 (i : S8192x3.Idx) (q : dot_S8192x64_S64x3_S8192x3_1_0_0_1_n_n.contr.Idx) : (dot_S8192x64_S64x3_S8192x3_1_0_0_1_n_n.lhsIdx i q 0).val = (i 0).val := by
  unfold DotDims.lhsIdx
  rw [dif_neg (show ¬(0 : Fin S8192x64.rank) ∈ dot_S8192x64_S64x3_S8192x3_1_0_0_1_n_n.lhsBatch by decide), dif_pos (show (0 : Fin S8192x64.rank) ∈ dot_S8192x64_S64x3_S8192x3_1_0_0_1_n_n.lhsNonContracting by decide)]
  rfl
theorem mm3_l1 (i : S8192x3.Idx) (q : dot_S8192x64_S64x3_S8192x3_1_0_0_1_n_n.contr.Idx) : (dot_S8192x64_S64x3_S8192x3_1_0_0_1_n_n.lhsIdx i q 1).val = (q ⟨0, by decide⟩).val :=
  dot_S8192x64_S64x3_S8192x3_1_0_0_1_n_n.lhsIdx_val_of_single rfl i q
theorem mm3_r0 (i : S8192x3.Idx) (q : dot_S8192x64_S64x3_S8192x3_1_0_0_1_n_n.contr.Idx) : (dot_S8192x64_S64x3_S8192x3_1_0_0_1_n_n.rhsIdx i q 0).val = (q ⟨0, by decide⟩).val :=
  dot_S8192x64_S64x3_S8192x3_1_0_0_1_n_n.rhsIdx_val_of_single rfl i q
theorem mm3_r1 (i : S8192x3.Idx) (q : dot_S8192x64_S64x3_S8192x3_1_0_0_1_n_n.contr.Idx) : (dot_S8192x64_S64x3_S8192x3_1_0_0_1_n_n.rhsIdx i q 1).val = (i 1).val := by
  unfold DotDims.rhsIdx
  rw [dif_neg (show ¬(1 : Fin S64x3.rank) ∈ dot_S8192x64_S64x3_S8192x3_1_0_0_1_n_n.rhsBatch by decide), dif_pos (show (1 : Fin S64x3.rank) ∈ dot_S8192x64_S64x3_S8192x3_1_0_0_1_n_n.rhsNonContracting by decide)]
  rfl

/-- The matmul of a [8192, 64] block with [64, 3] weights into zeros, at entry `(p, j)`: the sum over the
    contracted coordinate of the products. -/
theorem mm3_apply (l : FVec Ideal S8192x64 .bf16) (r : FVec Ideal S64x3 .bf16) (p : Fin 8192) (j : Fin 3) :
    matmul dot_S8192x64_S64x3_S8192x3_1_0_0_1_n_n none l r (constant S8192x3 .f32 0x00000000#32) (ix2 p j)
      = ∑ k : Fin 64, l (ix2 p k) * r (ix2 k j) := by
  simp only [matmul]
  rw [Ideal.matmul_constant_zero_apply, ← Equiv.sum_comp (contrEquiv1 dot_S8192x64_S64x3_S8192x3_1_0_0_1_n_n 64 rfl rfl).symm]
  refine Finset.sum_congr rfl fun k _ => ?_
  have hk := contrEquiv1_symm_val dot_S8192x64_S64x3_S8192x3_1_0_0_1_n_n 64 rfl rfl k
  have el : dot_S8192x64_S64x3_S8192x3_1_0_0_1_n_n.lhsIdx (ix2 p j) ((contrEquiv1 dot_S8192x64_S64x3_S8192x3_1_0_0_1_n_n 64 rfl rfl).symm k) = ix2 p k := funext fun a => Fin.ext (by
    match a with
    | ⟨0, _⟩ => exact mm3_l0 _ _
    | ⟨1, _⟩ => exact (mm3_l1 _ _).trans hk)
  have er : dot_S8192x64_S64x3_S8192x3_1_0_0_1_n_n.rhsIdx (ix2 p j) ((contrEquiv1 dot_S8192x64_S64x3_S8192x3_1_0_0_1_n_n 64 rfl rfl).symm k) = ix2 k j := funext fun a => Fin.ext (by
    match a with
    | ⟨0, _⟩ => exact (mm3_r0 _ _).trans hk
    | ⟨1, _⟩ => exact mm3_r1 _ _)
  rw [el, er]

/-- A bias vector of length 64, read as one row and broadcast down the block, is `b[j]` at every row. -/
theorem bias64_apply (b : Vec Ideal S64 .f32) (p : Fin 8192) (j : Fin 64) :
    broadcastTo S8192x64 (shapeCast S1x64 b shapeCasts_S64_S1x64) broadcasts_S1x64_S8192x64 (ix2 p j) = b (ix1 j) := by
  refine (broadcastTo_apply _ _ (ix2 p j) (ix2 (0 : Fin 1) j) (fun a => match a with
    | ⟨0, _⟩ => by show 0 = (if (1 : Nat) = 1 then 0 else p.val); rw [if_pos rfl]
    | ⟨1, _⟩ => by show j.val = (if (64 : Nat) = 1 then 0 else j.val); rw [if_neg (by decide)])).trans ?_
  exact shapeCast_apply _ _ (ix2 (0 : Fin 1) j) (ix1 j)
    (by rw [Shape.rowMajor_val_one, Shape.rowMajor_val_two]; show j.val = 0 * 64 + j.val; omega)

/-- The first stage as a vector operation: the [8192, 32] block times the 32 × 64 weights, plus the bias row,
    clamped at zero. -/
def stage1 (v : FVec Ideal S8192x32 .bf16) (w : Vec Ideal S32x64 .f32) (b : Vec Ideal S64 .f32) : FVec Ideal S8192x64 .bf16 :=
  truncf .bf16 (maximumf (addf (matmul dot_S8192x32_S32x64_S8192x64_1_0_0_1_n_n none v (truncf .bf16 w bitsLt_bf16_f32) (constant S8192x64 .f32 0x00000000#32))
    (broadcastTo S8192x64 (shapeCast S1x64 b shapeCasts_S64_S1x64) broadcasts_S1x64_S8192x64))
    (broadcast S8192x64 (Scalar.ofBits .f32 0x00000000#32))) bitsLt_bf16_f32

/-- A later stage: the [8192, 64] activations times 64 × 64 weights, plus the bias row, clamped at zero. -/
def stage2 (v : FVec Ideal S8192x64 .bf16) (w : Vec Ideal S64x64 .f32) (b : Vec Ideal S64 .f32) : FVec Ideal S8192x64 .bf16 :=
  truncf .bf16 (maximumf (addf (matmul dot_S8192x64_S64x64_S8192x64_1_0_0_1_n_n none v (truncf .bf16 w bitsLt_bf16_f32) (constant S8192x64 .f32 0x00000000#32))
    (broadcastTo S8192x64 (shapeCast S1x64 b shapeCasts_S64_S1x64) broadcasts_S1x64_S8192x64))
    (broadcast S8192x64 (Scalar.ofBits .f32 0x00000000#32))) bitsLt_bf16_f32

/-- Row `p` of the first stage is the clamped dense layer of row `p` of the block. -/
theorem stage1_apply (v : FVec Ideal S8192x32 .bf16) (w : Vec Ideal S32x64 .f32) (b : Vec Ideal S64 .f32) (p : Fin 8192) (j : Fin 64) :
    stage1 v w b (ix2 p j) = clamp (dense w b (fun k => v (ix2 p k))) j := by
  show max (matmul dot_S8192x32_S32x64_S8192x64_1_0_0_1_n_n none v (truncf .bf16 w bitsLt_bf16_f32) (constant S8192x64 .f32 0x00000000#32) (ix2 p j)
    + broadcastTo S8192x64 (shapeCast S1x64 b shapeCasts_S64_S1x64) broadcasts_S1x64_S8192x64 (ix2 p j)) (Ideal.ofBits .f32 0x00000000#32) = _
  rw [mm1_apply, bias64_apply]
  rfl

/-- Row `p` of a later stage is the clamped dense layer of row `p` of the activations before it. -/
theorem stage2_apply (v : FVec Ideal S8192x64 .bf16) (w : Vec Ideal S64x64 .f32) (b : Vec Ideal S64 .f32) (p : Fin 8192) (j : Fin 64) :
    stage2 v w b (ix2 p j) = clamp (dense w b (fun k => v (ix2 p k))) j := by
  show max (matmul dot_S8192x64_S64x64_S8192x64_1_0_0_1_n_n none v (truncf .bf16 w bitsLt_bf16_f32) (constant S8192x64 .f32 0x00000000#32) (ix2 p j)
    + broadcastTo S8192x64 (shapeCast S1x64 b shapeCasts_S64_S1x64) broadcasts_S1x64_S8192x64 (ix2 p j)) (Ideal.ofBits .f32 0x00000000#32) = _
  rw [mm2_apply, bias64_apply]
  rfl

/-- The payload is the last matmul of the three stages stacked. -/
theorem pay2_eq (P0 : Vec Ideal S8192x32 .bf16) (P1 : Vec Ideal S32x64 .f32) (P2 : Vec Ideal S64 .f32) (P3 : Vec Ideal S64x64 .f32)
    (P4 : Vec Ideal S64 .f32) (P5 : Vec Ideal S64x64 .f32) (P6 : Vec Ideal S64 .f32) (P7 : Vec Ideal S64x3 .f32) :
    k0_pay2 (F := Ideal) P0 P1 P2 P3 P4 P5 P6 P7
      = matmul dot_S8192x64_S64x3_S8192x3_1_0_0_1_n_n none (stage2 (stage2 (stage1 (shapeCast S8192x32 P0 shapeCasts_S8192x32_S8192x32) P1 P2) P3 P4) P5 P6)
          (truncf .bf16 P7 bitsLt_bf16_f32) (constant S8192x3 .f32 0x00000000#32) := rfl

/-- THE PAYLOAD AT AN ENTRY: the last layer's sum over the hidden activations of the block's row `p`. -/
theorem pay2_row (P0 : Vec Ideal S8192x32 .bf16) (P1 : Vec Ideal S32x64 .f32) (P2 : Vec Ideal S64 .f32) (P3 : Vec Ideal S64x64 .f32)
    (P4 : Vec Ideal S64 .f32) (P5 : Vec Ideal S64x64 .f32) (P6 : Vec Ideal S64 .f32) (P7 : Vec Ideal S64x3 .f32) (p : Fin 8192) (o : Fin 3) :
    k0_pay2 (F := Ideal) P0 P1 P2 P3 P4 P5 P6 P7 (ix2 p o)
      = ∑ k : Fin 64, hidden P1 P2 P3 P4 P5 P6 (fun k => P0 (ix2 p k)) k * P7 (ix2 k o) := by
  rw [pay2_eq]
  refine (mm3_apply _ _ p o).trans ?_
  refine Finset.sum_congr rfl fun k _ => ?_
  show _ * P7 (ix2 k o) = _
  congr 1
  simp only [stage2_apply, stage1_apply, shapeCast_self]
  rfl

end Cert.KernelIdeal.Row

end
-- ==== Proof.KernelWhole.lean ====
/-
  From blocks to the whole result array. The grid has 256 points; point `t` reads rows
  `8192·t … 8192·t + 8191` of the embedding array (all 32 features), reads every weight matrix and
  bias vector whole, and writes back rows `8192·t … 8192·t + 8191` of the result (all 3 columns).
  Since a row of the perceptron's output depends on the same row of its input alone, what point `t`
  writes back is block `t` of ONE function of the whole arrays — the perceptron `G` applied to the
  embedding array as the region finds it — and the 256 blocks cover the result array: row `r` lies in
  block `r / 8192`. So after the run the result array is `G` of the arrays the region was entered with.
-/
import proofs.«127308_j43619687858999_2_alg».proof.Proof.Gen.KernelIdeal.Value
import proofs.«127308_j43619687858999_2_alg».proof.Proof.KernelRow
import proofs.«127308_j43619687858999_2_alg».proof.Proof.MlpSpec

noncomputable section

namespace Cert.KernelIdeal.Whole

open Cert.KernelIdeal Cert.KernelIdeal.Gen Cert.KernelIdeal.Row Idealize.ShloMosaic Idealize.ShloMosaic.TcCoe Idealize.SL.Sem
open Idealize.ShloMosaic.ValueIdx Cert.Mlp
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The printed index maps, decided once over the 256 grid points: the row windows (the embedding rows read, the
    result rows written) sit at block `t` of the row axis and block 0 of the feature axis; every weight and bias
    window is its whole array, block 0 on every axis. -/
theorem idx_facts : ∀ t : Fin cfg0.N,
    win0_0.index t (0 : Fin 2) = t.val ∧ win0_0.index t (1 : Fin 2) = 0
    ∧ win0_9.index t (0 : Fin 2) = t.val ∧ win0_9.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

/-! ## Each weight or bias window's block is its whole array; the row window's block is a band of rows -/

theorem blk1 (c : Dev nD) (t : Fin cfg0.N) (y : S32x64.Idx) : iblk m c 1 t y = V m c main_arg2 y := by
  obtain ⟨_, _, _, _, _, _, _, _, _, _, _, _, _, _, _, _⟩ := idx_facts t
  show V m c main_arg2 (((cfg0.win 1).blk t).view.emb y) = V m c main_arg2 y
  refine congrArg _ (funext fun a => Fin.ext ?_)
  match a with
  | ⟨0, _⟩ => show win0_1.index t (0 : Fin 2) * 32 + 1 * (y 0).val = (y 0).val; omega
  | ⟨1, _⟩ => show win0_1.index t (1 : Fin 2) * 64 + 1 * (y 1).val = (y 1).val; omega

theorem blk2 (c : Dev nD) (t : Fin cfg0.N) (y : S64.Idx) : iblk m c 2 t y = V m c main_arg3 y := by
  obtain ⟨_, _, _, _, _, _, _, _, _, _, _, _, _, _, _, _⟩ := idx_facts t
  show V m c main_arg3 (((cfg0.win 2).blk t).view.emb y) = V m c main_arg3 y
  refine congrArg _ (funext fun a => Fin.ext ?_)
  match a with
  | ⟨0, _⟩ => show win0_2.index t (0 : Fin 1) * 64 + 1 * (y 0).val = (y 0).val; omega

theorem blk3 (c : Dev nD) (t : Fin cfg0.N) (y : S64x64.Idx) : iblk m c 3 t y = V m c main_arg4 y := by
  obtain ⟨_, _, _, _, _, _, _, _, _, _, _, _, _, _, _, _⟩ := idx_facts t
  show V m c main_arg4 (((cfg0.win 3).blk t).view.emb y) = V m c main_arg4 y
  refine congrArg _ (funext fun a => Fin.ext ?_)
  match a with
  | ⟨0, _⟩ => show win0_3.index t (0 : Fin 2) * 64 + 1 * (y 0).val = (y 0).val; omega
  | ⟨1, _⟩ => show win0_3.index t (1 : Fin 2) * 64 + 1 * (y 1).val = (y 1).val; omega

theorem blk4 (c : Dev nD) (t : Fin cfg0.N) (y : S64.Idx) : iblk m c 4 t y = V m c main_arg5 y := by
  obtain ⟨_, _, _, _, _, _, _, _, _, _, _, _, _, _, _, _⟩ := idx_facts t
  show V m c main_arg5 (((cfg0.win 4).blk t).view.emb y) = V m c main_arg5 y
  refine congrArg _ (funext fun a => Fin.ext ?_)
  match a with
  | ⟨0, _⟩ => show win0_4.index t (0 : Fin 1) * 64 + 1 * (y 0).val = (y 0).val; omega

theorem blk5 (c : Dev nD) (t : Fin cfg0.N) (y : S64x64.Idx) : iblk m c 5 t y = V m c main_arg6 y := by
  obtain ⟨_, _, _, _, _, _, _, _, _, _, _, _, _, _, _, _⟩ := idx_facts t
  show V m c main_arg6 (((cfg0.win 5).blk t).view.emb y) = V m c main_arg6 y
  refine congrArg _ (funext fun a => Fin.ext ?_)
  match a with
  | ⟨0, _⟩ => show win0_5.index t (0 : Fin 2) * 64 + 1 * (y 0).val = (y 0).val; omega
  | ⟨1, _⟩ => show win0_5.index t (1 : Fin 2) * 64 + 1 * (y 1).val = (y 1).val; omega

theorem blk6 (c : Dev nD) (t : Fin cfg0.N) (y : S64.Idx) : iblk m c 6 t y = V m c main_arg7 y := by
  obtain ⟨_, _, _, _, _, _, _, _, _, _, _, _, _, _, _, _⟩ := idx_facts t
  show V m c main_arg7 (((cfg0.win 6).blk t).view.emb y) = V m c main_arg7 y
  refine congrArg _ (funext fun a => Fin.ext ?_)
  match a with
  | ⟨0, _⟩ => show win0_6.index t (0 : Fin 1) * 64 + 1 * (y 0).val = (y 0).val; omega

theorem blk7 (c : Dev nD) (t : Fin cfg0.N) (y : S64x3.Idx) : iblk m c 7 t y = V m c main_arg8 y := by
  obtain ⟨_, _, _, _, _, _, _, _, _, _, _, _, _, _, _, _⟩ := idx_facts t
  show V m c main_arg8 (((cfg0.win 7).blk t).view.emb y) = V m c main_arg8 y
  refine congrArg _ (funext fun a => Fin.ext ?_)
  match a with
  | ⟨0, _⟩ => show win0_7.index t (0 : Fin 2) * 64 + 1 * (y 0).val = (y 0).val; omega
  | ⟨1, _⟩ => show win0_7.index t (1 : Fin 2) * 3 + 1 * (y 1).val = (y 1).val; omega

theorem blk8 (c : Dev nD) (t : Fin cfg0.N) (y : S3.Idx) : iblk m c 8 t y = V m c main_arg9 y := by
  obtain ⟨_, _, _, _, _, _, _, _, _, _, _, _, _, _, _, _⟩ := idx_facts t
  show V m c main_arg9 (((cfg0.win 8).blk t).view.emb y) = V m c main_arg9 y
  refine congrArg _ (funext fun a => Fin.ext ?_)
  match a with
  | ⟨0, _⟩ => show win0_8.index t (0 : Fin 1) * 3 + 1 * (y 0).val = (y 0).val; omega

/-- Row `p` of the embedding block at point `t` is row `8192·t + p` of the embedding array. -/
theorem blk0 (c : Dev nD) (t : Fin cfg0.N) (p : Fin 8192) (k : Fin 32) (n : Fin 2097152) (hn : n.val = t.val * 8192 + p.val) :
    iblk m c 0 t (ix2 p k) = V m c main_v10 (ix2 n k) := by
  obtain ⟨_, _, _, _, _, _, _, _, _, _, _, _, _, _, _, _⟩ := idx_facts t
  show V m c main_v10 (((cfg0.win 0).blk t).view.emb (ix2 p k)) = V m c main_v10 (ix2 n k)
  refine congrArg _ (funext fun a => Fin.ext ?_)
  match a with
  | ⟨0, _⟩ => show win0_0.index t (0 : Fin 2) * 8192 + 1 * p.val = n.val; omega
  | ⟨1, _⟩ => show win0_0.index t (1 : Fin 2) * 32 + 1 * k.val = k.val; omega

/-! ## What a point writes back -/

/-- The perceptron at entry `(n, o)`, with the last layer's sum and bias spelt out. -/
theorem G_at (X : S2097152x32.Idx → EReal) (W1 : S32x64.Idx → EReal) (b1 : S64.Idx → EReal) (W2 : S64x64.Idx → EReal) (b2 : S64.Idx → EReal)
    (W3 : S64x64.Idx → EReal) (b3 : S64.Idx → EReal) (W4 : S64x3.Idx → EReal) (b4 : S3.Idx → EReal) (n : Fin 2097152) (o : Fin 3) :
    G X W1 b1 W2 b2 W3 b3 W4 b4 (ix2 n o)
      = (∑ k : Fin 64, hidden W1 b1 W2 b2 W3 b3 (fun k => X (ix2 n k)) k * W4 (ix2 k o)) + b4 (ix1 o) := rfl

/-- WHAT POINT `t` WRITES BACK is block `t` of the perceptron of the arrays as the region finds them. -/
theorem flushed_eq (c : Dev nD) (t : Fin cfg0.N) :
    (dats m 0 c).flushed 9 t = ((cfg0.win 9).blk t).view.read (Elt Ideal) (G (V m c main_v10) (V m c main_arg2) (V m c main_arg3) (V m c main_arg4) (V m c main_arg5) (V m c main_arg6) (V m c main_arg7) (V m c main_arg8) (V m c main_arg9)) := by
  obtain ⟨_, _, f2, f3, _⟩ := idx_facts t
  have ht : t.val < 256 := lt_of_lt_of_eq t.isLt N_0
  rw [Value.flushed9]
  unfold out0_9
  simp only [View.ld_unit_zero (S := S8192x32) hz2, View.ld_unit_zero (S := S32x64) hz2, View.ld_unit_zero (S := S64) hz1,
    View.ld_unit_zero (S := S64x64) hz2, View.ld_unit_zero (S := S64x3) hz2, View.ld_unit_zero (S := S3) hz1]
  funext y
  obtain ⟨p, o, rfl⟩ : ∃ (p : Fin 8192) (o : Fin 3), y = ix2 p o := ⟨y 0, y 1, @eq_ix2 8192 3 y⟩
  show View.canon ([⟨r0_6, k0_pay1 (k0_pay2 (iblk m c 0 t) (iblk m c 1 t) (iblk m c 2 t) (iblk m c 3 t) (iblk m c 4 t) (iblk m c 5 t) (iblk m c 6 t) (iblk m c 7 t)) (k0_pay3 (iblk m c 8 t))⟩] : List (View.Piece (Elt Ideal) S8192x3 .f32)) (ix2 p o)
    = G (V m c main_v10) (V m c main_arg2) (V m c main_arg3) (V m c main_arg4) (V m c main_arg5) (V m c main_arg6) (V m c main_arg7) (V m c main_arg8) (V m c main_arg9) (((cfg0.win 9).blk t).view.emb (ix2 p o))
  refine (Value.canon9_eq (iblk m c 0 t) (iblk m c 1 t) (iblk m c 2 t) (iblk m c 3 t) (iblk m c 4 t) (iblk m c 5 t) (iblk m c 6 t) (iblk m c 7 t) (iblk m c 8 t) (ix2 p o)).trans ?_
  have e0 : Value.ix9_0 (ix2 p o) = ix2 p o := funext fun a => match a with | ⟨0, _⟩ => rfl | ⟨1, _⟩ => rfl
  have e1 : Value.ix9_1 (ix2 p o) = ix1 o := funext fun a => match a with | ⟨0, _⟩ => rfl
  show k0_pay2 (F := Ideal) (iblk m c 0 t) (iblk m c 1 t) (iblk m c 2 t) (iblk m c 3 t) (iblk m c 4 t) (iblk m c 5 t) (iblk m c 6 t) (iblk m c 7 t) (Value.ix9_0 (ix2 p o)) + iblk m c 8 t (Value.ix9_1 (ix2 p o)) = _
  rw [e0, e1]
  have hemb : ((cfg0.win 9).blk t).view.emb (ix2 p o) = ix2 (⟨t.val * 8192 + p.val, by have := p.isLt; omega⟩ : Fin 2097152) o :=
    funext fun a => Fin.ext (by
      match a with
      | ⟨0, _⟩ => show win0_9.index t (0 : Fin 2) * 8192 + 1 * p.val = t.val * 8192 + p.val; omega
      | ⟨1, _⟩ => show win0_9.index t (1 : Fin 2) * 3 + 1 * o.val = o.val; omega)
  rw [hemb, G_at]
  refine (congrArg₂ (· + ·) (pay2_row (iblk m c 0 t) (iblk m c 1 t) (iblk m c 2 t) (iblk m c 3 t) (iblk m c 4 t) (iblk m c 5 t) (iblk m c 6 t) (iblk m c 7 t) p o) (blk8 m c t (ix1 o))).trans ?_
  have h1 : (iblk m c 1 t : S32x64.Idx → EReal) = V m c main_arg2 := funext (blk1 m c t)
  have h2 : (iblk m c 2 t : S64.Idx → EReal) = V m c main_arg3 := funext (blk2 m c t)
  have h3 : (iblk m c 3 t : S64x64.Idx → EReal) = V m c main_arg4 := funext (blk3 m c t)
  have h4 : (iblk m c 4 t : S64.Idx → EReal) = V m c main_arg5 := funext (blk4 m c t)
  have h5 : (iblk m c 5 t : S64x64.Idx → EReal) = V m c main_arg6 := funext (blk5 m c t)
  have h6 : (iblk m c 6 t : S64.Idx → EReal) = V m c main_arg7 := funext (blk6 m c t)
  have h7 : (iblk m c 7 t : S64x3.Idx → EReal) = V m c main_arg8 := funext (blk7 m c t)
  have h0 : (fun k : Fin 32 => iblk m c 0 t (ix2 p k)) = fun k => V m c main_v10 (ix2 (⟨t.val * 8192 + p.val, by have := p.isLt; omega⟩ : Fin 2097152) k) :=
    funext fun k => blk0 m c t p k _ rfl
  rw [h0, h1, h2, h3, h4, h5, h6, h7]

/-! ## The blocks cover the result array -/

/-- An index of the result array is in point `t`'s block iff each coordinate is in the block's range on its axis. -/
theorem mem_blk (t : Fin cfg0.N) (i : S2097152x3.Idx) :
    i ∈ ((cfg0.win 9).blk t).view.set ↔ ∀ a : Fin 2, win0_9.index t a * S8192x3.size a ≤ (i a).val ∧ (i a).val < win0_9.index t a * S8192x3.size a + S8192x3.size a := by
  show i ∈ ((View.whole main_v11).slice (win0_9.rect t)).set ↔ _
  rw [View.set_slice_whole, Rect.mem_set_unit]
  exact Iff.rfl

/-- Row `r` of the result lies in the block of point `r / 8192`, which is written back. -/
theorem cover (i : S2097152x3.Idx) : ∃ t : Fin cfg0.N, (cfg0.win 9).flush t = true ∧ i ∈ ((cfg0.win 9).blk t).view.set := by
  have hi0 : (i 0).val < 2097152 := (i 0).isLt
  have hi1 : (i 1).val < 3 := (i 1).isLt
  have hq : (i 0).val / 8192 < cfg0.N := lt_of_lt_of_eq (b := 256) (by omega) N_0.symm
  obtain ⟨_, _, f2, f3, _⟩ := idx_facts ⟨(i 0).val / 8192, hq⟩
  refine ⟨⟨(i 0).val / 8192, hq⟩, flush0_9 _, ?_⟩
  rw [mem_blk]
  intro a
  match a with
  | ⟨0, _⟩ =>
    show win0_9.index ⟨(i 0).val / 8192, hq⟩ (0 : Fin 2) * 8192 ≤ (i 0).val ∧ (i 0).val < win0_9.index ⟨(i 0).val / 8192, hq⟩ (0 : Fin 2) * 8192 + 8192
    rw [f2]; show (i 0).val / 8192 * 8192 ≤ (i 0).val ∧ (i 0).val < (i 0).val / 8192 * 8192 + 8192; omega
  | ⟨1, _⟩ =>
    show win0_9.index ⟨(i 0).val / 8192, hq⟩ (1 : Fin 2) * 3 ≤ (i 1).val ∧ (i 1).val < win0_9.index ⟨(i 0).val / 8192, hq⟩ (1 : Fin 2) * 3 + 3
    rw [f3]; omega

/-! ## The result array after the run -/

/-- THE RESULT ARRAY after the run is the perceptron of the embedding array the region finds and of the weights and
    biases as launched. -/
theorem final (c : Dev nD) : (dats m 0 c).arrAt 9 cfg0.N
    = G (V m c main_v10) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) := by
  rw [← V_main_arg2 m c, ← V_main_arg3 m c, ← V_main_arg4 m c, ← V_main_arg5 m c, ← V_main_arg6 m c, ← V_main_arg7 m c,
    ← V_main_arg8 m c, ← V_main_arg9 m c]
  exact (dats m 0 c).arrAt_eq_of_cover 9 (G (V m c main_v10) (V m c main_arg2) (V m c main_arg3) (V m c main_arg4) (V m c main_arg5) (V m c main_arg6) (V m c main_arg7) (V m c main_arg8) (V m c main_arg9)) (fun t _ => flushed_eq m c t) cover

end Cert.KernelIdeal.Whole

end
-- ==== Proof.RefRow.lean ====
/-
  The reference at one entry. Its program is a straight line of whole-array operations; read one
  operation at a time at an index, row `n` of each activation array depends on row `n` of the array
  before it alone: a `dot_general` contracting the feature axis is `∑ k, a[n, k] · W[k, j]`, the bias
  is broadcast down the rows, and the maximum with the zero splat is the clamp. Stacked, entry
  `(n, o)` of the result is the perceptron of row `n` of the gathered-and-flattened embedding array.
-/
import proofs.«127308_j43619687858999_2_alg».proof.Proof.Gen.ReferenceIdeal.Read
import proofs.«127308_j43619687858999_2_alg».proof.Proof.MlpSpec

noncomputable section

namespace Cert.ReferenceIdeal.Row

open Cert.ReferenceIdeal Cert.ReferenceIdeal.Gen Cert.ReferenceIdeal.Read Idealize.ShloMosaic Idealize.ShloMosaic.ValueIdx Cert.Mlp
open scoped BigOperators

/-- Row `n` of the first activation array: the clamped dense layer of row `n` of the embedding array. -/
theorem act1_apply (x0 : (⟨S2097152x16, .i32⟩ : BufTy).Contents (Elt Ideal)) (x1 : (⟨S16x524288x2, .f32⟩ : BufTy).Contents (Elt Ideal)) (x2 : (⟨S32x64, .f32⟩ : BufTy).Contents (Elt Ideal)) (x3 : (⟨S64, .f32⟩ : BufTy).Contents (Elt Ideal)) (n : Fin 2097152) (j : Fin 64) :
    val_main_v14 (F := Ideal) x0 x1 x2 x3 (ix2 n j) = clamp (dense x2 x3 (fun k => val_main_v9 (F := Ideal) x0 x1 (ix2 n k))) j := by
  rw [val_main_v14_apply, val_main_v13_apply, val_main_v10_apply, val_main_v12_apply, val_main_v11_apply,
    val_main_call0_v0_apply, val_main_call0_cst_apply]
  have e1 : ∀ k, lidx_main_v10 (ix2 n j) k = ix2 n k := fun k => funext fun a => match a with | ⟨0, _⟩ => rfl | ⟨1, _⟩ => rfl
  have e2 : ∀ k, ridx_main_v10 (ix2 n j) k = ix2 k j := fun k => funext fun a => match a with | ⟨0, _⟩ => rfl | ⟨1, _⟩ => rfl
  have e3 : idx_main_v11 (idx_main_v12 (ix2 n j)) = ix1 j := funext fun a => match a with | ⟨0, _⟩ => rfl
  simp only [e1, e2, e3]
  rfl

/-- Row `n` of the second activation array, from row `n` of the first. -/
theorem act2_apply (x0 : (⟨S2097152x16, .i32⟩ : BufTy).Contents (Elt Ideal)) (x1 : (⟨S16x524288x2, .f32⟩ : BufTy).Contents (Elt Ideal)) (x2 : (⟨S32x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (n : Fin 2097152) (j : Fin 64) :
    val_main_v19 (F := Ideal) x0 x1 x2 x3 x4 x5 (ix2 n j) = clamp (dense x4 x5 (fun k => val_main_v14 (F := Ideal) x0 x1 x2 x3 (ix2 n k))) j := by
  rw [val_main_v19_apply, val_main_v18_apply, val_main_v15_apply, val_main_v17_apply, val_main_v16_apply,
    val_main_call1_v0_apply, val_main_call1_cst_apply]
  have e1 : ∀ k, lidx_main_v15 (ix2 n j) k = ix2 n k := fun k => funext fun a => match a with | ⟨0, _⟩ => rfl | ⟨1, _⟩ => rfl
  have e2 : ∀ k, ridx_main_v15 (ix2 n j) k = ix2 k j := fun k => funext fun a => match a with | ⟨0, _⟩ => rfl | ⟨1, _⟩ => rfl
  have e3 : idx_main_v16 (idx_main_v17 (ix2 n j)) = ix1 j := funext fun a => match a with | ⟨0, _⟩ => rfl
  simp only [e1, e2, e3]
  rfl

/-- Row `n` of the third activation array, from row `n` of the second. -/
theorem act3_apply (x0 : (⟨S2097152x16, .i32⟩ : BufTy).Contents (Elt Ideal)) (x1 : (⟨S16x524288x2, .f32⟩ : BufTy).Contents (Elt Ideal)) (x2 : (⟨S32x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (n : Fin 2097152) (j : Fin 64) :
    val_main_v24 (F := Ideal) x0 x1 x2 x3 x4 x5 x6 x7 (ix2 n j) = clamp (dense x6 x7 (fun k => val_main_v19 (F := Ideal) x0 x1 x2 x3 x4 x5 (ix2 n k))) j := by
  rw [val_main_v24_apply, val_main_v23_apply, val_main_v20_apply, val_main_v22_apply, val_main_v21_apply,
    val_main_call2_v0_apply, val_main_call2_cst_apply]
  have e1 : ∀ k, lidx_main_v20 (ix2 n j) k = ix2 n k := fun k => funext fun a => match a with | ⟨0, _⟩ => rfl | ⟨1, _⟩ => rfl
  have e2 : ∀ k, ridx_main_v20 (ix2 n j) k = ix2 k j := fun k => funext fun a => match a with | ⟨0, _⟩ => rfl | ⟨1, _⟩ => rfl
  have e3 : idx_main_v21 (idx_main_v22 (ix2 n j)) = ix1 j := funext fun a => match a with | ⟨0, _⟩ => rfl
  simp only [e1, e2, e3]
  rfl

/-- Entry `(n, j)` of the result, from row `n` of the third activation array. -/
theorem out_apply (x0 : (⟨S2097152x16, .i32⟩ : BufTy).Contents (Elt Ideal)) (x1 : (⟨S16x524288x2, .f32⟩ : BufTy).Contents (Elt Ideal)) (x2 : (⟨S32x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x3, .f32⟩ : BufTy).Contents (Elt Ideal)) (x9 : (⟨S3, .f32⟩ : BufTy).Contents (Elt Ideal)) (n : Fin 2097152) (j : Fin 3) :
    val_main_v28 (F := Ideal) x0 x1 x2 x3 x4 x5 x6 x7 x8 x9 (ix2 n j) = dense x8 x9 (fun k => val_main_v24 (F := Ideal) x0 x1 x2 x3 x4 x5 x6 x7 (ix2 n k)) j := by
  rw [val_main_v28_apply, val_main_v25_apply, val_main_v27_apply, val_main_v26_apply]
  have e1 : ∀ k, lidx_main_v25 (ix2 n j) k = ix2 n k := fun k => funext fun a => match a with | ⟨0, _⟩ => rfl | ⟨1, _⟩ => rfl
  have e2 : ∀ k, ridx_main_v25 (ix2 n j) k = ix2 k j := fun k => funext fun a => match a with | ⟨0, _⟩ => rfl | ⟨1, _⟩ => rfl
  have e3 : idx_main_v26 (idx_main_v27 (ix2 n j)) = ix1 j := funext fun a => match a with | ⟨0, _⟩ => rfl
  simp only [e1, e2, e3]
  rfl

/-- THE REFERENCE'S RESULT is the perceptron of the embedding array, entry by entry. -/
theorem result_eq (x0 : (⟨S2097152x16, .i32⟩ : BufTy).Contents (Elt Ideal)) (x1 : (⟨S16x524288x2, .f32⟩ : BufTy).Contents (Elt Ideal)) (x2 : (⟨S32x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x3, .f32⟩ : BufTy).Contents (Elt Ideal)) (x9 : (⟨S3, .f32⟩ : BufTy).Contents (Elt Ideal)) :
    val_main_v28 (F := Ideal) x0 x1 x2 x3 x4 x5 x6 x7 x8 x9 = G (val_main_v9 (F := Ideal) x0 x1) x2 x3 x4 x5 x6 x7 x8 x9 := by
  funext i
  obtain ⟨n, o, rfl⟩ : ∃ (n : Fin 2097152) (o : Fin 3), i = ix2 n o := ⟨i 0, i 1, eq_ix2 i⟩
  rw [out_apply]
  simp only [act3_apply, act2_apply, act1_apply]
  rfl

end Cert.ReferenceIdeal.Row

end
-- ==== Proof.Embedding.lean ====
/-
  The embedding array is the same on both sides. Before its region the kernel's program rounds the
  tables to bf16, wraps negative indices, transposes them to one row per head, gathers two features
  per (head, point), transposes back and flattens each point's 16 × 2 features into a row of 32. The
  reference does the same without the rounding. At the extended reals a change of float format is
  the identity and a gather only selects entries, so the array the kernel's region finds is the
  reference's flattened gather of the same two arguments — the gather itself is never opened.
-/
import proofs.«127308_j43619687858999_2_alg».proof.Proof.Gen.KernelIdeal.Frame
import proofs.«127308_j43619687858999_2_alg».proof.Proof.Gen.ReferenceIdeal.Read
import Idealize.ShloMosaic.Lib.StableHlo.Run

noncomputable section

namespace Cert.Embedding

open Idealize.ShloMosaic Idealize.ShloMosaic.TcCoe Idealize.SL.Sem Idealize.ShloMosaic.StableHlo

/-- The array of embedding rows as the kernel's region finds it is the reference's flattened gather of the
    kernel's own index and table arguments. -/
theorem embed_eq (m : (ℓ : Loc Cert.KernelIdeal.nD Cert.KernelIdeal.τ Cert.KernelIdeal.sig) → Buf (Elt Ideal) ℓ) (c : Dev Cert.KernelIdeal.nD) :
    (Cert.KernelIdeal.Gen.V m c Cert.KernelIdeal.main_v10 : Cert.KernelIdeal.S2097152x32.Idx → EReal)
      = Cert.ReferenceIdeal.Read.val_main_v9 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1)) := by
  dsimp only [Cert.KernelIdeal.Gen.V, Cert.KernelIdeal.Gen.hostOps0]
  after_results
  rfl

end Cert.Embedding

end
-- ==== Proof.lean ====
/-
  The kernel — a four-layer perceptron (three hidden layers of width 64 with a clamp at zero, an output
  layer of width 3) applied to 2 097 152 rows of 32 gathered embedding features, 8192 rows per grid
  point, with the embedding tables rounded to bf16 before the gather and every matmul fed bf16
  operands — against the plain jnp reference that gathers in f32 and multiplies whole arrays.
  At the extended reals a change of float format is the identity, a matmul into a zero accumulator
  and a `dot_general` are the same finite sum, and a row of the perceptron's output depends on the
  same row of its input alone. So:
    * the array of embedding rows is the same function of the index and table arguments on both
      sides (the gather is carried whole, never opened);
    * the reference's result is the perceptron `G` of that array, entry by entry;
    * each grid point of the kernel writes back its band of rows of the same `G`, and the 256 bands
      cover the result.
  No step uses distributivity or cancellation, so the finiteness of the inputs is never needed: the
  two results are equal at every extended-real input. The idealization rewrote nothing of the
  kernel, so the preservation claim is empty; the three frame claims are the programs' runs.
-/
import proofs.«127308_j43619687858999_2_alg».proof.Defs
import proofs.«127308_j43619687858999_2_alg».proof.Proof.Gen.Kernel
import proofs.«127308_j43619687858999_2_alg».proof.Proof.Gen.Kernel.Skeleton
import proofs.«127308_j43619687858999_2_alg».proof.Proof.Gen.Kernel.Launch
import proofs.«127308_j43619687858999_2_alg».proof.Proof.Gen.Kernel.Points
import proofs.«127308_j43619687858999_2_alg».proof.Proof.Gen.Kernel.Frame
import proofs.«127308_j43619687858999_2_alg».proof.Proof.Gen.KernelIdeal
import proofs.«127308_j43619687858999_2_alg».proof.Proof.Gen.KernelIdeal.Skeleton
import proofs.«127308_j43619687858999_2_alg».proof.Proof.Gen.KernelIdeal.Launch
import proofs.«127308_j43619687858999_2_alg».proof.Proof.Gen.KernelIdeal.Points
import proofs.«127308_j43619687858999_2_alg».proof.Proof.Gen.KernelIdeal.Frame
import proofs.«127308_j43619687858999_2_alg».proof.Proof.Gen.ReferenceIdeal
import proofs.«127308_j43619687858999_2_alg».proof.Proof.Gen.KernelIdeal.Value
import proofs.«127308_j43619687858999_2_alg».proof.Proof.Gen.ReferenceIdeal.Run
import proofs.«127308_j43619687858999_2_alg».proof.Proof.Gen.ReferenceIdeal.Read
import proofs.«127308_j43619687858999_2_alg».proof.Proof.Gen.Pre_finite_inputs
import proofs.«127308_j43619687858999_2_alg».proof.Proof.MlpSpec
import proofs.«127308_j43619687858999_2_alg».proof.Proof.KernelWhole
import proofs.«127308_j43619687858999_2_alg».proof.Proof.RefRow
import proofs.«127308_j43619687858999_2_alg».proof.Proof.Embedding
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference's run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the perceptron of the one embedding array and the launched weights and biases. -/
theorem algebraic : Cert.algebraic_KernelIdeal_ReferenceIdeal := by
  intro m ρ m' ρ' _ hagree
  refine ⟨fun c => Cert.Mlp.G (Cert.KernelIdeal.Gen.V m c Cert.KernelIdeal.main_v10)
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Whole.final m c), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9⟩ := hagree c
    rw [Cert.ReferenceIdeal.Read.val_main_v28_eq, Cert.ReferenceIdeal.Row.result_eq, a0, a1, a2, a3, a4, a5, a6, a7, a8, a9,
      ← Cert.Embedding.embed_eq m c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
